-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 82
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x1, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S1x1, .f32⟩
  | .hbm, ⟨80, _⟩ => ⟨S100000x1, .f32⟩
  | .hbm, ⟨81, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Outcome.lean ====
/-
  The run of the five-region program with its RESULT read back. Every weakly fair execution of @main terminates, nothing
  faults, the argument arrays end as launched, and the result buffer ends at what the last boundary of @main's fold
  holds there: `W10` — the launch memory carried through the host stretches and the five regions' write-backs in order.
  The run is the same launch over the same ten segments that proves the frame; the final state is read back at one more
  buffer, the result's.
-/
import proofs.«110512_j54657753809364_1_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Outcome

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Layers.lean ====
/-
  The dense pieces of a two-layer graph convolution with a linear readout, each as ONE function of whole arrays on the
  extended reals, index by index:

  * `dense x w` — the feature projection `x · W`: entry `(p, q)` is `Σ_k x(p, k) · W(k, q)` over the 128 input features;
  * `biasRelu a b` — a bias row added to every node's features and the negative part cut off: `max (a(p, q) + b(0, q)) 0`;
  * `readout h w b` — the final linear map to one number per node: `Σ_k h(p, k) · w(k, 0) + b(0, 0)`.

  Then what each kernel body computes from the blocks it loads (a 5000-row tile of the node features, the whole weight
  matrix or bias row), read at an entry `(p, q)` of the tile: the same three formulas with the tile in place of the array.
  A change of float format is the identity on the extended reals, so the bf16 operands of the matrix unit are the f32
  values themselves, and the product into a zero accumulator is the plain sum.
-/
import proofs.«110512_j54657753809364_1_alg».proof.Proof.Gen.KernelIdeal.Skeleton
import proofs.«110512_j54657753809364_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layers

open Cert.KernelIdeal Cert.KernelIdeal.Gen Idealize.ShloMosaic Idealize.ShloMosaic.ValueIdx

/-- `x · W` for node features `x : [100000, 128]` and weights `W : [128, 128]`. -/
def dense (x : FVec Ideal S100000x128 .f32) (w : FVec Ideal S128x128 .f32) : FVec Ideal S100000x128 .f32 :=
  fun i => ∑ k : Fin 128, x (ix2 (i 0) k) * w (ix2 k (i 1))

/-- `max (a + b, 0)`, the bias row `b : [1, 128]` added to every row of `a : [100000, 128]`. The zero is kept as the
    float word both programs write. -/
def biasRelu (a : FVec Ideal S100000x128 .f32) (b : FVec Ideal S1x128 .f32) : FVec Ideal S100000x128 .f32 :=
  fun i => max (a i + b (ix2 (0 : Fin 1) (i 1))) (Ideal.ofBits .f32 0x00000000#32)

/-- `h · w + b` for `h : [100000, 128]`, one output column `w : [128, 1]` and the scalar bias `b : [1, 1]`. -/
def readout (h : FVec Ideal S100000x128 .f32) (w : FVec Ideal S128x1 .f32) (b : FVec Ideal S1x1 .f32) :
    FVec Ideal S100000x1 .f32 :=
  fun i => (∑ k : Fin 128, h (ix2 (i 0) k) * w (ix2 k (i 1))) + b (ix2 (0 : Fin 1) (i 1))

/-! ## The kernel bodies on a tile, at an entry -/

/-- The projection body on a 5000-row tile `x0` and the weights `x1`, at `(p, q)`: `Σ_k x0(p, k) · x1(k, q)`. -/
theorem proj_at (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact (LibMatmulNN.matmul_nn_apply (M := 5000) (N := 128) (K := 128) dot_S5000x128_S128x128_S5000x128_1_0_0_1_n_n
    rfl rfl rfl rfl rfl rfl none _ _ p q).trans (Finset.sum_congr rfl fun k _ => rfl)

/-- The second layer's projection body is the same function of its tile (a cast of the tile to its own shape first). -/
theorem proj_at' (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  exact (LibMatmulNN.matmul_nn_apply (M := 5000) (N := 128) (K := 128) dot_S5000x128_S128x128_S5000x128_1_0_0_1_n_n
    rfl rfl rfl rfl rfl rfl none _ _ p q).trans (Finset.sum_congr rfl fun k _ => rfl)

/-- The bias-and-cut-off body on a tile `x0` and the bias row `x1`, at `(p, q)`: `max (x0(p, q) + x1(0, q)) 0`. -/
theorem bias_at (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  simp only [shapeCast_self]
  show max (x0 (ix2 p q) + broadcastTo S5000x128 x1 broadcasts_S1x128_S5000x128 (ix2 p q)) _ = _
  rw [broadcastTo_1b_ab_apply]
  rfl

theorem bias_at' (x0 : Vec Ideal S5000x128 .f32) (x1 : Vec Ideal S1x128 .f32) (p : Fin 5000) (q : Fin 128) :
    k3_pay1 x0 x1 (ix2 p q) = max (x0 (ix2 p q) + x1 (ix2 (0 : Fin 1) q)) (Ideal.ofBits .f32 0x00000000#32) := by
  unfold k3_pay1
  simp only [shapeCast_self]
  show max (x0 (ix2 p q) + broadcastTo S5000x128 x1 broadcasts_S1x128_S5000x128 (ix2 p q)) _ = _
  rw [broadcastTo_1b_ab_apply]
  rfl

/-- The readout body on a tile `x0`, the output column `x1` and the scalar bias `x2`, at `(p, q)`:
    `Σ_k x0(p, k) · x1(k, q) + x2(0, q)`. -/
theorem readout_at (x0 : Vec Ideal S5000x128 .f32) (x1 : Vec Ideal S128x1 .f32) (x2 : Vec Ideal S1x1 .f32) (p : Fin 5000) (q : Fin 1) :
    k4_pay1 x0 x1 x2 (ix2 p q) = (∑ k : Fin 128, x0 (ix2 p k) * x1 (ix2 k q)) + x2 (ix2 (0 : Fin 1) q) := by
  unfold k4_pay1
  simp only [shapeCast_self]
  show matmul (F := Ideal) dot_S5000x128_S128x1_S5000x1_1_0_0_1_n_n none _ _ _ (ix2 p q)
      + broadcastTo S5000x1 x2 broadcasts_S1x1_S5000x1 (ix2 p q) = _
  rw [broadcastTo_1b_ab_apply]
  exact congrArg (· + x2 (ix2 (0 : Fin 1) q))
    ((LibMatmulNN.matmul_nn_apply (M := 5000) (N := 1) (K := 128) dot_S5000x128_S128x1_S5000x1_1_0_0_1_n_n
      rfl rfl rfl rfl rfl rfl none _ _ p q).trans (Finset.sum_congr rfl fun k _ => rfl))

/-! ## The same, at an entry `j` of the tile given as one index -/

theorem proj_tile (x0 : Vec Ideal S5000x128 .f32) (x1 : Vec Ideal S128x128 .f32) (j : S5000x128.Idx) :
    k0_pay1 x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  exact proj_at x0 x1 p q

theorem proj_tile' (x0 : Vec Ideal S5000x128 .f32) (x1 : Vec Ideal S128x128 .f32) (j : S5000x128.Idx) :
    k2_pay1 x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  exact proj_at' x0 x1 p q

theorem bias_tile (x0 : Vec Ideal S5000x128 .f32) (x1 : Vec Ideal S1x128 .f32) (j : S5000x128.Idx) :
    k1_pay1 x0 x1 j = max (x0 j + x1 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact bias_at x0 x1 p q

theorem bias_tile' (x0 : Vec Ideal S5000x128 .f32) (x1 : Vec Ideal S1x128 .f32) (j : S5000x128.Idx) :
    k3_pay1 x0 x1 j = max (x0 j + x1 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact bias_at' x0 x1 p q

theorem readout_tile (x0 : Vec Ideal S5000x128 .f32) (x1 : Vec Ideal S128x1 .f32) (x2 : Vec Ideal S1x1 .f32) (j : S5000x1.Idx) :
    k4_pay1 x0 x1 x2 j = (∑ k : Fin 128, x0 (ix2 (j 0) k) * x1 (ix2 k (j 1))) + x2 (ix2 (0 : Fin 1) (j 1)) := by
  obtain ⟨p, q, rfl⟩ : ∃ (p : Fin 5000) (q : Fin 1), j = ix2 p q := ⟨j 0, j 1, eq_ix2 j⟩
  exact readout_at x0 x1 x2 p q

end Cert.KernelIdeal.Layers

end
-- ==== Proof.Tiles0.lean ====
/-
  The first projection, region by tiles. The pipeline runs the projection body at 20 grid points; point `t` loads rows
  `5000·t … 5000·t + 4999` of the node features and the whole weight matrix and writes back the same rows of the result.
  So the result array after the region is `dense` of the two arrays as the region found them: every tile is the
  restriction of that one function, and the 20 tiles cover the array.
-/
import proofs.«110512_j54657753809364_1_alg».proof.Proof.Gen.KernelIdeal.Frame
import proofs.«110512_j54657753809364_1_alg».proof.Proof.Layers

set_option maxRecDepth 16384

noncomputable section

open scoped BigOperators

namespace Cert.KernelIdeal.Tiles0

open Cert.KernelIdeal Cert.KernelIdeal.Gen Cert.KernelIdeal.Layers Idealize.ShloMosaic Idealize.ShloMosaic.TcCoe
open Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where the blocks sit, decided over the 20 grid points: a row tile moves with the output's tile, a whole operand
    stays at block (0, 0), and the output's tiles are the 20 consecutive runs of 5000 rows. -/
theorem tile_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row tiles is some grid point's. -/
theorem tile_onto : ∀ q0 : Fin 20, ∃ t : Fin cfg0.N, win0_2.index t = ![q0.val, 0] :=
  (by decide +kernel : ∀ q0 : Fin 20, ∃ t : Fin grid0.N, win0_2.index t = ![q0.val, 0])

/-- The row tile of operand 0 at point `t`, at `(y₀, k)`, is the array's entry in the row the OUTPUT tile's entry `y` sits in. -/
theorem rows0 (c : Dev nD) (t : Fin cfg0.N) (y : S5000x128.Idx) (k : Fin 128) :
    iblk0 V c 0 t (ix2 (y 0) k) = V c main_arg0 (ix2 ((((cfg0.win 2).blk t).view.emb y) 0) k) := by
  obtain ⟨e0, e1, e2, e3, e4, e5⟩ := tile_facts t
  show V c main_arg0 (((cfg0.win 0).blk t).view.emb (ix2 (y 0) k)) = V c main_arg0 _
  refine congrArg (V c main_arg0) (funext fun a => Fin.ext ?_)
  match a with
  | ⟨0, _⟩ => show win0_0.index t (0 : Fin 2) * 5000 + 1 * (y 0).val = win0_2.index t (0 : Fin 2) * 5000 + 1 * (y 0).val; omega
  | ⟨1, _⟩ => show win0_0.index t (1 : Fin 2) * 128 + 1 * k.val = k.val; omega

/-- Operand 1's one block is its whole array. -/
theorem whole1 (c : Dev nD) (t : Fin cfg0.N) (z : S128x128.Idx) :
    iblk0 V c 1 t z = V c main_arg2 z := by
  obtain ⟨e0, e1, e2, e3, e4, e5⟩ := tile_facts t
  show V c main_arg2 (((cfg0.win 1).blk t).view.emb z) = V c main_arg2 z
  refine congrArg (V c main_arg2) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The column of an output tile's entry is its column in the array. -/
theorem col_emb (t : Fin cfg0.N) (y : S5000x128.Idx) :
    ((((cfg0.win 2).blk t).view.emb y) 1) = (y 1) := by
  obtain ⟨e0, e1, e2, e3, e4, e5⟩ := tile_facts t
  apply Fin.ext
  show win0_2.index t (1 : Fin 2) * 128 + 1 * (y 1).val = (y 1).val; omega

/-- WHAT POINT `t` WRITES BACK is its tile of `dense` of the arrays the region finds. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext y
  show k0_pay1 (iblk0 V c 0 t) (iblk0 V c 1 t) y = dense (V c main_arg0) (V c main_arg2) (((cfg0.win 2).blk t).view.emb y)
  refine (proj_tile _ _ y).trans ?_
  unfold dense
  refine Finset.sum_congr rfl fun k _ => ?_
  rw [rows0 V c t y k, whole1 V c t, col_emb t y]

/-- An index of the array is in point `t`'s tile iff each coordinate is in the tile's range on its axis. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The 20 tiles cover the array: row `r` is in tile `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := tile_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after the region: `dense` of the arrays the region was entered with. -/
theorem final (c : Dev nD) : (dat0 V c).arrAt 2 cfg0.N = dense (V c main_arg0) (V c main_arg2) :=
  (dat0 V c).arrAt_eq_of_cover 2 _ (fun t _ => flushed_eq V c t) cover

end Cert.KernelIdeal.Tiles0

end
-- ==== Proof.Tiles1.lean ====
/-
  The first bias-and-cut-off, region by tiles. Point `t` of 20 loads rows `5000·t … 5000·t + 4999` of the aggregated
  features and the one bias row, and writes back the same rows of `max (a + b, 0)`. Every tile is the restriction of
  `biasRelu` of the two arrays as the region found them, and the 20 tiles cover the array.
-/
import proofs.«110512_j54657753809364_1_alg».proof.Proof.Gen.KernelIdeal.Frame
import proofs.«110512_j54657753809364_1_alg».proof.Proof.Layers

set_option maxRecDepth 16384

noncomputable section

open scoped BigOperators

namespace Cert.KernelIdeal.Tiles1

open Cert.KernelIdeal Cert.KernelIdeal.Gen Cert.KernelIdeal.Layers Idealize.ShloMosaic Idealize.ShloMosaic.TcCoe
open Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where the blocks sit, decided over the 20 grid points: a row tile moves with the output's tile, a whole operand
    stays at block (0, 0), and the output's tiles are the 20 consecutive runs of 5000 rows. -/
theorem tile_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row tiles is some grid point's. -/
theorem tile_onto : ∀ q0 : Fin 20, ∃ t : Fin cfg1.N, win1_2.index t = ![q0.val, 0] :=
  (by decide +kernel : ∀ q0 : Fin 20, ∃ t : Fin grid1.N, win1_2.index t = ![q0.val, 0])

/-- The row tile of operand 0 at point `t` sits where the output's tile sits: entry `y` of it is the array's entry under `y`. -/
theorem same0 (c : Dev nD) (t : Fin cfg1.N) (y : S5000x128.Idx) :
    iblk1 V c 0 t y = V c main_v40 (((cfg1.win 2).blk t).view.emb y) := by
  obtain ⟨e0, e1, e2, e3, e4, e5⟩ := tile_facts t
  show V c main_v40 (((cfg1.win 0).blk t).view.emb y) = V c main_v40 _
  refine congrArg (V c main_v40) (funext fun a => Fin.ext ?_)
  match a with
  | ⟨0, _⟩ => show win1_0.index t (0 : Fin 2) * 5000 + 1 * (y 0).val = win1_2.index t (0 : Fin 2) * 5000 + 1 * (y 0).val; omega
  | ⟨1, _⟩ => show win1_0.index t (1 : Fin 2) * 128 + 1 * (y 1).val = win1_2.index t (1 : Fin 2) * 128 + 1 * (y 1).val; omega

/-- Operand 1's one block is its whole array. -/
theorem whole1 (c : Dev nD) (t : Fin cfg1.N) (z : S1x128.Idx) :
    iblk1 V c 1 t z = V c main_v41 z := by
  obtain ⟨e0, e1, e2, e3, e4, e5⟩ := tile_facts t
  show V c main_v41 (((cfg1.win 1).blk t).view.emb z) = V c main_v41 z
  refine congrArg (V c main_v41) (funext fun a => Fin.ext ?_)
  match a with
  | ⟨0, _⟩ => show win1_1.index t (0 : Fin 2) * 1 + 1 * (z 0).val = (z 0).val; omega
  | ⟨1, _⟩ => show win1_1.index t (1 : Fin 2) * 128 + 1 * (z 1).val = (z 1).val; omega

/-- The column of an output tile's entry is its column in the array. -/
theorem col_emb (t : Fin cfg1.N) (y : S5000x128.Idx) :
    ((((cfg1.win 2).blk t).view.emb y) 1) = (y 1) := by
  obtain ⟨e0, e1, e2, e3, e4, e5⟩ := tile_facts t
  apply Fin.ext
  show win1_2.index t (1 : Fin 2) * 128 + 1 * (y 1).val = (y 1).val; omega

/-- WHAT POINT `t` WRITES BACK is its tile of `biasRelu` of the arrays the region finds. -/
theorem flushed_eq (c : Dev nD) (t : Fin cfg1.N) :
    (dat1 V c).flushed 2 t = ((cfg1.win 2).blk t).view.read (Elt Ideal) (biasRelu (V c main_v40) (V c main_v41)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  funext y
  show k1_pay1 (iblk1 V c 0 t) (iblk1 V c 1 t) y = biasRelu (V c main_v40) (V c main_v41) (((cfg1.win 2).blk t).view.emb y)
  refine (bias_tile _ _ y).trans ?_
  unfold biasRelu
  rw [same0 V c t y, whole1 V c t, col_emb t y]

/-- An index of the array is in point `t`'s tile iff each coordinate is in the tile's range on its axis. -/
theorem mem_tile (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- The 20 tiles cover the array: row `r` is in tile `r / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := tile_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY after the region: `biasRelu` of the arrays the region was entered with. -/
theorem final (c : Dev nD) : (dat1 V c).arrAt 2 cfg1.N = biasRelu (V c main_v40) (V c main_v41) :=
  (dat1 V c).arrAt_eq_of_cover 2 _ (fun t _ => flushed_eq V c t) cover

end Cert.KernelIdeal.Tiles1

end
-- ==== Proof.Tiles2.lean ====
/-
  The second projection, region by tiles: as the first, on the first layer's output and the second weight matrix.
  Point `t` of 20 loads rows `5000·t … 5000·t + 4999` of the features and the whole weight matrix and writes back the same
  rows of the product, so the result array is `dense` of the two arrays as the region found them.
-/
import proofs.«110512_j54657753809364_1_alg».proof.Proof.Gen.KernelIdeal.Frame
import proofs.«110512_j54657753809364_1_alg».proof.Proof.Layers

set_option maxRecDepth 16384

noncomputable section

open scoped BigOperators

namespace Cert.KernelIdeal.Tiles2

open Cert.KernelIdeal Cert.KernelIdeal.Gen Cert.KernelIdeal.Layers Idealize.ShloMosaic Idealize.ShloMosaic.TcCoe
open Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where the blocks sit, decided over the 20 grid points: a row tile moves with the output's tile, a whole operand
    stays at block (0, 0), and the output's tiles are the 20 consecutive runs of 5000 rows. -/
theorem tile_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the 20 row tiles is some grid point's. -/
theorem tile_onto : ∀ q0 : Fin 20, ∃ t : Fin cfg2.N, win2_2.index t = ![q0.val, 0] :=
  (by decide +kernel : ∀ q0 : Fin 20, ∃ t : Fin grid2.N, win2_2.index t = ![q0.val, 0])

/-- The row tile of operand 0 at point `t`, at `(y₀, k)`, is the array's entry in the row the OUTPUT tile's entry `y` sits in. -/
theorem rows0 (c : Dev nD) (t : Fin cfg2.N) (y : S5000x128.Idx) (k : Fin 128) :
    iblk2 V c 0 t (ix2 (y 0) k) = V c main_v42 (ix2 ((((cfg2.win 2).blk t).view.emb y) 0) k) := by
  obtain ⟨e0, e1, e2, e3, e4, e5⟩ := tile_facts t
  show V c main_v42 (((cfg2.win 0).blk t).view.emb (ix2 (y 0) k)) = V c main_v42 _
  refine congrArg (V c main_v42) (funext fun a => Fin.ext ?_)
  match a with
  | ⟨0, _⟩ => show win2_0.index t (0 : Fin 2) * 5000 + 1 * (y 0).val = win2_2.index t (0 : Fin 2) * 5000 + 1 * (y 0).val; omega
  | ⟨1, _⟩ => show win2_0.index t (1 : Fin 2) * 128 + 1 * k.val = k.val; omega

/-- Operand 1's one block is its whole array. -/
theorem whole1 (c : Dev nD) (t : Fin cfg2.N) (z : S128x128.Idx) :
    iblk2 V c 1 t z = V c main_arg4 z := by
  obtain ⟨e0, e1, e2, e3, e4, e5⟩ := tile_facts t
  show V c main_arg4 (((cfg2.win 1).blk t).view.emb z) = V c main_arg4 z
  refine congrArg (V c main_arg4) (funext fun a => Fin.ext ?_)
  match a with
  | ⟨0, _⟩ => show win2_1.index t (0 : Fin 2) * 128 + 1 * (z 0).val = (z 0).val; omega
  | ⟨1, _⟩ => show win2_1.index t (1 : Fin 2) * 128 + 1 * (z 1).val = (z 1).val; omega

/-- The column of an output tile's entry is its column in the array. -/
theorem col_emb (t : Fin cfg2.N) (y : S5000x128.Idx) :
    ((((cfg2.win 2).blk t).view.emb y) 1) = (y 1) := by
  obtain ⟨e0, e1, e2, e3, e4, e5⟩ := tile_facts t
  apply Fin.ext
  show win2_2.index t (1 : Fin 2) * 128 + 1 * (y 1).val = (y 1).val; omega

/-- WHAT POINT `t` WRITES BACK is its tile of `dense` of the arrays the region finds. -/
theorem flushed_eq (c : Dev nD) (t : Fin cfg2.N) :
    (dat2 V c).flushed 2 t = ((cfg2.win 2).blk t).view.read (Elt Ideal) (dense (V c main_v42) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  funext y
  show k2_pay1 (iblk2 V c 0 t) (iblk2 V c 1 t) y = dense (V c main_v42) (V c main_arg4) (((cfg2.win 2).blk t).view.emb y)
  refine (proj_tile' _ _ y).trans ?_
  unfold dense
  refine Finset.sum_congr rfl fun k _ => ?_
  rw [rows0 V c t y k, whole1 V c t, col_emb t y]

/-- An index of the array is in point `t`'s tile iff each coordinate is in the tile's range on its axis. -/
theorem mem_tile (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- The 20 tiles cover the array: row `r` is in tile `r / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := tile_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE ARRAY after the region: `dense` of the arrays the region was entered with. -/
theorem final (c : Dev nD) : (dat2 V c).arrAt 2 cfg2.N = dense (V c main_v42) (V c main_arg4) :=
  (dat2 V c).arrAt_eq_of_cover 2 _ (fun t _ => flushed_eq V c t) cover

end Cert.KernelIdeal.Tiles2

end
-- ==== Proof.Tiles3.lean ====
/-
  The second bias-and-cut-off, region by tiles: as the first, on the second layer's aggregated features and bias row.
  Every tile is the restriction of `biasRelu` of the two arrays as the region found them, and the 20 tiles cover the array.
-/
import proofs.«110512_j54657753809364_1_alg».proof.Proof.Gen.KernelIdeal.Frame
import proofs.«110512_j54657753809364_1_alg».proof.Proof.Layers

set_option maxRecDepth 16384

noncomputable section

open scoped BigOperators

namespace Cert.KernelIdeal.Tiles3

open Cert.KernelIdeal Cert.KernelIdeal.Gen Cert.KernelIdeal.Layers Idealize.ShloMosaic Idealize.ShloMosaic.TcCoe
open Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where the blocks sit, decided over the 20 grid points: a row tile moves with the output's tile, a whole operand
    stays at block (0, 0), and the output's tiles are the 20 consecutive runs of 5000 rows. -/
theorem tile_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the 20 row tiles is some grid point's. -/
theorem tile_onto : ∀ q0 : Fin 20, ∃ t : Fin cfg3.N, win3_2.index t = ![q0.val, 0] :=
  (by decide +kernel : ∀ q0 : Fin 20, ∃ t : Fin grid3.N, win3_2.index t = ![q0.val, 0])

/-- The row tile of operand 0 at point `t` sits where the output's tile sits: entry `y` of it is the array's entry under `y`. -/
theorem same0 (c : Dev nD) (t : Fin cfg3.N) (y : S5000x128.Idx) :
    iblk3 V c 0 t y = V c main_v56 (((cfg3.win 2).blk t).view.emb y) := by
  obtain ⟨e0, e1, e2, e3, e4, e5⟩ := tile_facts t
  show V c main_v56 (((cfg3.win 0).blk t).view.emb y) = V c main_v56 _
  refine congrArg (V c main_v56) (funext fun a => Fin.ext ?_)
  match a with
  | ⟨0, _⟩ => show win3_0.index t (0 : Fin 2) * 5000 + 1 * (y 0).val = win3_2.index t (0 : Fin 2) * 5000 + 1 * (y 0).val; omega
  | ⟨1, _⟩ => show win3_0.index t (1 : Fin 2) * 128 + 1 * (y 1).val = win3_2.index t (1 : Fin 2) * 128 + 1 * (y 1).val; omega

/-- Operand 1's one block is its whole array. -/
theorem whole1 (c : Dev nD) (t : Fin cfg3.N) (z : S1x128.Idx) :
    iblk3 V c 1 t z = V c main_v57 z := by
  obtain ⟨e0, e1, e2, e3, e4, e5⟩ := tile_facts t
  show V c main_v57 (((cfg3.win 1).blk t).view.emb z) = V c main_v57 z
  refine congrArg (V c main_v57) (funext fun a => Fin.ext ?_)
  match a with
  | ⟨0, _⟩ => show win3_1.index t (0 : Fin 2) * 1 + 1 * (z 0).val = (z 0).val; omega
  | ⟨1, _⟩ => show win3_1.index t (1 : Fin 2) * 128 + 1 * (z 1).val = (z 1).val; omega

/-- The column of an output tile's entry is its column in the array. -/
theorem col_emb (t : Fin cfg3.N) (y : S5000x128.Idx) :
    ((((cfg3.win 2).blk t).view.emb y) 1) = (y 1) := by
  obtain ⟨e0, e1, e2, e3, e4, e5⟩ := tile_facts t
  apply Fin.ext
  show win3_2.index t (1 : Fin 2) * 128 + 1 * (y 1).val = (y 1).val; omega

/-- WHAT POINT `t` WRITES BACK is its tile of `biasRelu` of the arrays the region finds. -/
theorem flushed_eq (c : Dev nD) (t : Fin cfg3.N) :
    (dat3 V c).flushed 2 t = ((cfg3.win 2).blk t).view.read (Elt Ideal) (biasRelu (V c main_v56) (V c main_v57)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  funext y
  show k3_pay1 (iblk3 V c 0 t) (iblk3 V c 1 t) y = biasRelu (V c main_v56) (V c main_v57) (((cfg3.win 2).blk t).view.emb y)
  refine (bias_tile' _ _ y).trans ?_
  unfold biasRelu
  rw [same0 V c t y, whole1 V c t, col_emb t y]

/-- An index of the array is in point `t`'s tile iff each coordinate is in the tile's range on its axis. -/
theorem mem_tile (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- The 20 tiles cover the array: row `r` is in tile `r / 5000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := tile_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_tile]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE ARRAY after the region: `biasRelu` of the arrays the region was entered with. -/
theorem final (c : Dev nD) : (dat3 V c).arrAt 2 cfg3.N = biasRelu (V c main_v56) (V c main_v57) :=
  (dat3 V c).arrAt_eq_of_cover 2 _ (fun t _ => flushed_eq V c t) cover

end Cert.KernelIdeal.Tiles3

end
-- ==== Proof.Tiles4.lean ====
/-
  The readout, region by tiles. Point `t` of 20 loads rows `5000·t … 5000·t + 4999` of the second layer's output, the
  whole output column and the scalar bias, and writes back the same rows of the one-column result. Every tile is the
  restriction of `readout` of the three arrays as the region found them, and the 20 tiles cover the column.
-/
import proofs.«110512_j54657753809364_1_alg».proof.Proof.Gen.KernelIdeal.Frame
import proofs.«110512_j54657753809364_1_alg».proof.Proof.Layers

set_option maxRecDepth 16384

noncomputable section

open scoped BigOperators

namespace Cert.KernelIdeal.Tiles4

open Cert.KernelIdeal Cert.KernelIdeal.Gen Cert.KernelIdeal.Layers Idealize.ShloMosaic Idealize.ShloMosaic.TcCoe
open Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where the blocks sit, decided over the 20 grid points: a row tile moves with the output's tile, a whole operand
    stays at block (0, 0), and the output's tiles are the 20 consecutive runs of 5000 rows. -/
theorem tile_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) ≤ 19 :=
  (by decide +kernel : ∀ t : Fin grid4.N, _)

/-- Every one of the 20 row tiles is some grid point's. -/
theorem tile_onto : ∀ q0 : Fin 20, ∃ t : Fin cfg4.N, win4_3.index t = ![q0.val, 0] :=
  (by decide +kernel : ∀ q0 : Fin 20, ∃ t : Fin grid4.N, win4_3.index t = ![q0.val, 0])

/-- The row tile of operand 0 at point `t`, at `(y₀, k)`, is the array's entry in the row the OUTPUT tile's entry `y` sits in. -/
theorem rows0 (c : Dev nD) (t : Fin cfg4.N) (y : S5000x1.Idx) (k : Fin 128) :
    iblk4 V c 0 t (ix2 (y 0) k) = V c main_v58 (ix2 ((((cfg4.win 3).blk t).view.emb y) 0) k) := by
  obtain ⟨e0, e1, e2, e3, e4, e5, e6, e7⟩ := tile_facts t
  show V c main_v58 (((cfg4.win 0).blk t).view.emb (ix2 (y 0) k)) = V c main_v58 _
  refine congrArg (V c main_v58) (funext fun a => Fin.ext ?_)
  match a with
  | ⟨0, _⟩ => show win4_0.index t (0 : Fin 2) * 5000 + 1 * (y 0).val = win4_3.index t (0 : Fin 2) * 5000 + 1 * (y 0).val; omega
  | ⟨1, _⟩ => show win4_0.index t (1 : Fin 2) * 128 + 1 * k.val = k.val; omega

/-- Operand 1's one block is its whole array. -/
theorem whole1 (c : Dev nD) (t : Fin cfg4.N) (z : S128x1.Idx) :
    iblk4 V c 1 t z = V c main_arg6 z := by
  obtain ⟨e0, e1, e2, e3, e4, e5, e6, e7⟩ := tile_facts t
  show V c main_arg6 (((cfg4.win 1).blk t).view.emb z) = V c main_arg6 z
  refine congrArg (V c main_arg6) (funext fun a => Fin.ext ?_)
  match a with
  | ⟨0, _⟩ => show win4_1.index t (0 : Fin 2) * 128 + 1 * (z 0).val = (z 0).val; omega
  | ⟨1, _⟩ => show win4_1.index t (1 : Fin 2) * 1 + 1 * (z 1).val = (z 1).val; omega

/-- Operand 2's one block is its whole array. -/
theorem whole2 (c : Dev nD) (t : Fin cfg4.N) (z : S1x1.Idx) :
    iblk4 V c 2 t z = V c main_v59 z := by
  obtain ⟨e0, e1, e2, e3, e4, e5, e6, e7⟩ := tile_facts t
  show V c main_v59 (((cfg4.win 2).blk t).view.emb z) = V c main_v59 z
  refine congrArg (V c main_v59) (funext fun a => Fin.ext ?_)
  match a with
  | ⟨0, _⟩ => show win4_2.index t (0 : Fin 2) * 1 + 1 * (z 0).val = (z 0).val; omega
  | ⟨1, _⟩ => show win4_2.index t (1 : Fin 2) * 1 + 1 * (z 1).val = (z 1).val; omega

/-- The column of an output tile's entry is its column in the array. -/
theorem col_emb (t : Fin cfg4.N) (y : S5000x1.Idx) :
    ((((cfg4.win 3).blk t).view.emb y) 1) = (y 1) := by
  obtain ⟨e0, e1, e2, e3, e4, e5, e6, e7⟩ := tile_facts t
  apply Fin.ext
  show win4_3.index t (1 : Fin 2) * 1 + 1 * (y 1).val = (y 1).val; omega

/-- WHAT POINT `t` WRITES BACK is its tile of `readout` of the arrays the region finds. -/
theorem flushed_eq (c : Dev nD) (t : Fin cfg4.N) :
    (dat4 V c).flushed 3 t = ((cfg4.win 3).blk t).view.read (Elt Ideal) (readout (V c main_v58) (V c main_arg6) (V c main_v59)) := by
  show (cfg4.win 3).cut (grid4.coords t) ((dat4 V c).after 3 t) = _
  rw [after4_3]
  unfold out4_3
  rw [View.canon_unit_zero origin]
  simp only [View.ld_unit_zero (S := S5000x128) origin, View.ld_unit_zero (S := S128x1) origin, View.ld_unit_zero (S := S1x1) origin]
  funext y
  show k4_pay1 (iblk4 V c 0 t) (iblk4 V c 1 t) (iblk4 V c 2 t) y = readout (V c main_v58) (V c main_arg6) (V c main_v59) (((cfg4.win 3).blk t).view.emb y)
  refine (readout_tile _ _ _ y).trans ?_
  unfold readout
  rw [whole2 V c t, col_emb t y]
  refine congrArg (· + V c main_v59 (ix2 (0 : Fin 1) (y 1))) (Finset.sum_congr rfl fun k _ => ?_)
  rw [rows0 V c t y k, whole1 V c t]

/-- An index of the array is in point `t`'s tile iff each coordinate is in the tile's range on its axis. -/
theorem mem_tile (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v60).slice (win4_3.rect t)).set ↔ _
  rw [View.set_slice_whole, Rect.mem_set_unit]
  exact Iff.rfl

/-- The 20 tiles cover the array: row `r` is in tile `r / 5000`. -/
theorem cover (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  obtain ⟨t, ht⟩ := tile_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_tile]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

/-- THE ARRAY after the region: `readout` of the arrays the region was entered with. -/
theorem final (c : Dev nD) : (dat4 V c).arrAt 3 cfg4.N = readout (V c main_v58) (V c main_arg6) (V c main_v59) :=
  (dat4 V c).arrAt_eq_of_cover 3 _ (fun t _ => flushed_eq V c t) cover

end Cert.KernelIdeal.Tiles4

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefStages.lean ====
/-
  The reference's dense stages are the same three functions. On the host a feature projection is one `dot_general`
  over all 100000 rows, a bias is a vector broadcast first to one row and then to every row, and the cut-off is a `max`
  with a broadcast zero. Read at an entry on the extended reals:

  * the `dot_general` at `(p, q)` is `Σ_k x(p, k) · W(k, q)` — `dense`;
  * `max (a + bias rows, zeros)` at `(p, q)` is `max (a(p, q) + b(q)) 0` — `biasRelu` of `a` and the bias laid out as one
    row `[1, 128]` (a reshape of the vector: entry `(0, q)` is `b(q)`, exactly what the broadcast to one row holds);
  * `dot_general + bias` at `(p, 0)` is `Σ_k h(p, k) · w(k, 0) + b(0)` — `readout`.
-/
import proofs.«110512_j54657753809364_1_alg».proof.Proof.Gen.ReferenceIdeal.Read
import proofs.«110512_j54657753809364_1_alg».proof.Proof.Layers
import proofs.«110512_j54657753809364_1_alg».proof.Proof.LibHostMatmulNN
import Idealize.ShloMosaic.Lib.ValueLayout

noncomputable section

open scoped BigOperators

namespace Cert.ReferenceIdeal.Stages

open Cert.ReferenceIdeal Cert.ReferenceIdeal.Gen Cert.ReferenceIdeal.Read Cert.KernelIdeal.Layers
open Idealize.ShloMosaic Idealize.ShloMosaic.ValueIdx

/-- The host's projection of all rows at once is `dense`. -/
theorem dot_eq_dense (x : FVec Ideal S100000x128 .f32) (w : FVec Ideal S128x128 .f32) :
    Host.dotGeneral dot_S100000x128_S128x128_S100000x128_1_0_0_1_n_n none x w = dense x w := by
  funext i
  obtain ⟨p, q, rfl⟩ : ∃ (p : Fin 100000) (q : Fin 128), i = ix2 p q := ⟨i 0, i 1, eq_ix2 i⟩
  exact LibHostMatmulNN.hostDot_nn_apply (M := 100000) (N := 128) (K := 128) dot_S100000x128_S128x128_S100000x128_1_0_0_1_n_n
    rfl rfl rfl rfl rfl rfl none x w p q

/-- The bias vector broadcast to one row and then to every row reads, at `(p, q)`, the vector at `q`. -/
theorem bias_rows_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (val_main_v42_apply (F := Ideal) b (ix2 p q)).trans ((val_main_v41_apply (F := Ideal) b _).trans (congrArg b ?_))
  funext a
  match a with
  | ⟨0, _⟩ => rfl

/-- The host's bias-and-cut-off is `biasRelu` of the same array and the bias as a `[1, 128]` row. -/
theorem max_add_eq_biasRelu (a : FVec Ideal S100000x128 .f32) (b : FVec Ideal S128 .f32)
    (h : S128.ShapeCasts Cert.KernelIdeal.S1x128) :
    maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = biasRelu a (shapeCast Cert.KernelIdeal.S1x128 b h) := by
  funext i
  obtain ⟨p, q, rfl⟩ : ∃ (p : Fin 100000) (q : Fin 128), i = ix2 p q := ⟨i 0, i 1, eq_ix2 i⟩
  have e0 : broadcastInDim S100000x128 ![] bcast_S_S100000x128 (constant (F := Ideal) S_ .f32 0x00000000#32) (ix2 p q)
      = Ideal.ofBits .f32 0x00000000#32 := (val_main_call0_v0_apply (F := Ideal) (ix2 p q)).trans rfl
  have e1 : shapeCast Cert.KernelIdeal.S1x128 b h (ix2 (0 : Fin 1) q) = b (ix1 q) := shapeCast_a_1a_apply b h 0 q
  show max (a (ix2 p q) + _) _ = max (a (ix2 p q) + shapeCast Cert.KernelIdeal.S1x128 b h (ix2 (0 : Fin 1) q)) (Ideal.ofBits .f32 0x00000000#32)
  rw [bias_rows_apply b p q, e0, e1]

/-- The scalar bias broadcast to `[1, 1]` and then to one column reads the scalar everywhere. -/
theorem bias_col_apply (b : FVec Ideal S1 .f32) (p : Fin 100000) (q : Fin 1) :
    broadcastInDim S100000x1 ![0, 1] bcast_S1x1_S100000x1_0_1 (broadcastInDim S1x1 ![1] bcast_S1_S1x1_1 b) (ix2 p q)
      = b (ix1 (0 : Fin 1)) := by
  refine (val_main_v65_apply (F := Ideal) b (ix2 p q)).trans ((val_main_v64_apply (F := Ideal) b _).trans (congrArg b ?_))
  funext a
  match a with
  | ⟨0, _⟩ => rfl

/-- The host's readout is `readout` of the same arrays and the scalar bias as a `[1, 1]` array. -/
theorem dot_add_eq_readout (hh : FVec Ideal S100000x128 .f32) (w : FVec Ideal S128x1 .f32) (b : FVec Ideal S1 .f32)
    (h : S1.ShapeCasts Cert.KernelIdeal.S1x1) :
    addf (Host.dotGeneral dot_S100000x128_S128x1_S100000x1_1_0_0_1_n_n none hh w)
        (broadcastInDim S100000x1 ![0, 1] bcast_S1x1_S100000x1_0_1 (broadcastInDim S1x1 ![1] bcast_S1_S1x1_1 b))
      = readout hh w (shapeCast Cert.KernelIdeal.S1x1 b h) := by
  funext i
  obtain ⟨p, q, rfl⟩ : ∃ (p : Fin 100000) (q : Fin 1), i = ix2 p q := ⟨i 0, i 1, eq_ix2 i⟩
  have e1 : shapeCast Cert.KernelIdeal.S1x1 b h (ix2 (0 : Fin 1) q) = b (ix1 (0 : Fin 1)) := by
    rw [shapeCast_a_1a_apply b h 0 q]
    exact congrArg b (funext fun a => match a with | ⟨0, _⟩ => Fin.ext (by have := q.isLt; show q.val = 0; omega))
  show Host.dotGeneral dot_S100000x128_S128x1_S100000x1_1_0_0_1_n_n none hh w (ix2 p q) + _
      = (∑ k : Fin 128, hh (ix2 p k) * w (ix2 k q)) + shapeCast Cert.KernelIdeal.S1x1 b h (ix2 (0 : Fin 1) q)
  rw [bias_col_apply b p q, e1,
    LibHostMatmulNN.hostDot_nn_apply (M := 100000) (N := 1) (K := 128) dot_S100000x128_S128x1_S100000x1_1_0_0_1_n_n
      rfl rfl rfl rfl rfl rfl none hh w p q]

end Cert.ReferenceIdeal.Stages

end
-- ==== Proof.Fold.lean ====
/-
  The fold through @main. The program is five kernel regions among stretches of host operations, and what its buffers
  hold at each boundary is a fold from the launch memory: a host stretch applies its operations in order, a region leaves
  its result array at what its 20 write-backs leave and every other buffer alone. Read along that fold, every buffer
  a later stage needs is one of the REFERENCE's stages of the launch arguments `x0 … x7`:

  * the edge lists with self-loops and the symmetric normalisation `deg^(-1/2)[src] · deg^(-1/2)[dst]` come from the
    first stretch, operation for operation the reference's;
  * a projection region leaves `dense` of its operands, the host's `dot_general`;
  * the gather — scale — scatter-add of a layer is the next stretch, again the reference's operations on the same values;
  * a bias-and-cut-off region leaves `biasRelu`, the host's `max (· + b, 0)`; the readout region leaves `readout`,
    the host's `dot_general + bias`; the final reshape to a vector is the same on both sides.

  So the result buffer at the last boundary is the reference's result stage of the launch arguments.
-/
import proofs.«110512_j54657753809364_1_alg».proof.Proof.Gen.KernelIdeal.Frame
import proofs.«110512_j54657753809364_1_alg».proof.Proof.Gen.ReferenceIdeal.Read
import proofs.«110512_j54657753809364_1_alg».proof.Proof.Tiles0
import proofs.«110512_j54657753809364_1_alg».proof.Proof.Tiles1
import proofs.«110512_j54657753809364_1_alg».proof.Proof.Tiles2
import proofs.«110512_j54657753809364_1_alg».proof.Proof.Tiles3
import proofs.«110512_j54657753809364_1_alg».proof.Proof.Tiles4
import proofs.«110512_j54657753809364_1_alg».proof.Proof.RefStages

set_option maxRecDepth 16384

noncomputable section

namespace Cert.KernelIdeal.Fold

open Cert.KernelIdeal Cert.KernelIdeal.Gen Cert.KernelIdeal.Layers
open Idealize.ShloMosaic Idealize.ShloMosaic.TcCoe Idealize.SL.Sem Idealize.ShloMosaic.StableHlo
open Cert.ReferenceIdeal.Read Cert.ReferenceIdeal.Stages

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)

/-! ## After the first host stretch: the edge lists, the normalisation, the arguments untouched -/

/-- Source nodes: the first row of the edge index followed by every node once (the self-loops). -/
theorem W1_v3 : W1 m ρ c (Proc.devRef .tc main_v3) = val_main_v3 (F := Ideal) x1 := by
  show StableHlo.after hostOps0 (W0 m ρ c) (Proc.devRef .tc main_v3) = _
  dsimp only [hostOps0]
  after_results_simp
  rfl

/-- Target nodes: the second row of the edge index followed by every node once. -/
theorem W1_v6 : W1 m ρ c (Proc.devRef .tc main_v6) = val_main_v6 (F := Ideal) x1 := by
  show StableHlo.after hostOps0 (W0 m ρ c) (Proc.devRef .tc main_v6) = _
  dsimp only [hostOps0]
  after_results_simp
  rfl

/-- The edge weights `deg^(-1/2)[src] · deg^(-1/2)[dst]`, the degrees counted by a scatter-add of ones. -/
theorem W1_v26 : W1 m ρ c (Proc.devRef .tc main_v26) = val_main_v26 (F := Ideal) x1 := by
  show StableHlo.after hostOps0 (W0 m ρ c) (Proc.devRef .tc main_v26) = _
  dsimp only [hostOps0]
  after_results_simp
  rfl

theorem W1_arg0 : W1 m ρ c (Proc.devRef .tc main_arg0) = x0 := by
  show StableHlo.after hostOps0 (W0 m ρ c) (Proc.devRef .tc main_arg0) = _
  dsimp only [hostOps0]
  after_results_simp <;> rfl

theorem W1_arg2 : W1 m ρ c (Proc.devRef .tc main_arg2) = x2 := by
  show StableHlo.after hostOps0 (W0 m ρ c) (Proc.devRef .tc main_arg2) = _
  dsimp only [hostOps0]
  after_results_simp <;> rfl

theorem W1_arg3 : W1 m ρ c (Proc.devRef .tc main_arg3) = x3 := by
  show StableHlo.after hostOps0 (W0 m ρ c) (Proc.devRef .tc main_arg3) = _
  dsimp only [hostOps0]
  after_results_simp <;> rfl

theorem W1_arg4 : W1 m ρ c (Proc.devRef .tc main_arg4) = x4 := by
  show StableHlo.after hostOps0 (W0 m ρ c) (Proc.devRef .tc main_arg4) = _
  dsimp only [hostOps0]
  after_results_simp <;> rfl

theorem W1_arg5 : W1 m ρ c (Proc.devRef .tc main_arg5) = x5 := by
  show StableHlo.after hostOps0 (W0 m ρ c) (Proc.devRef .tc main_arg5) = _
  dsimp only [hostOps0]
  after_results_simp <;> rfl

theorem W1_arg6 : W1 m ρ c (Proc.devRef .tc main_arg6) = x6 := by
  show StableHlo.after hostOps0 (W0 m ρ c) (Proc.devRef .tc main_arg6) = _
  dsimp only [hostOps0]
  after_results_simp <;> rfl

theorem W1_arg7 : W1 m ρ c (Proc.devRef .tc main_arg7) = x7 := by
  show StableHlo.after hostOps0 (W0 m ρ c) (Proc.devRef .tc main_arg7) = _
  dsimp only [hostOps0]
  after_results_simp <;> rfl

/-! ## After the first projection region -/

/-- The first layer's projected features `x · W1`. -/
theorem W2_v27 : W2 m ρ c (Proc.devRef .tc main_v27) = val_main_v27 (F := Ideal) x0 x2 := by
  refine (W2_arr m ρ c 2).trans ((Tiles0.final (V1 m ρ) c).trans ?_)
  show dense (W1 m ρ c (Proc.devRef .tc main_arg0)) (W1 m ρ c (Proc.devRef .tc main_arg2)) = _
  rw [W1_arg0 m ρ c, W1_arg2 m ρ c]
  exact (dot_eq_dense _ _).symm

theorem W2_v3 : W2 m ρ c (Proc.devRef .tc main_v3) = val_main_v3 (F := Ideal) x1 :=
  (W2_of_ne m ρ c main_v3 (by decide)).trans (W1_v3 m ρ c)

theorem W2_v6 : W2 m ρ c (Proc.devRef .tc main_v6) = val_main_v6 (F := Ideal) x1 :=
  (W2_of_ne m ρ c main_v6 (by decide)).trans (W1_v6 m ρ c)

theorem W2_v26 : W2 m ρ c (Proc.devRef .tc main_v26) = val_main_v26 (F := Ideal) x1 :=
  (W2_of_ne m ρ c main_v26 (by decide)).trans (W1_v26 m ρ c)

theorem W2_arg3 : W2 m ρ c (Proc.devRef .tc main_arg3) = x3 :=
  (W2_of_ne m ρ c main_arg3 (by decide)).trans (W1_arg3 m ρ c)

theorem W2_arg4 : W2 m ρ c (Proc.devRef .tc main_arg4) = x4 :=
  (W2_of_ne m ρ c main_arg4 (by decide)).trans (W1_arg4 m ρ c)

theorem W2_arg5 : W2 m ρ c (Proc.devRef .tc main_arg5) = x5 :=
  (W2_of_ne m ρ c main_arg5 (by decide)).trans (W1_arg5 m ρ c)

theorem W2_arg6 : W2 m ρ c (Proc.devRef .tc main_arg6) = x6 :=
  (W2_of_ne m ρ c main_arg6 (by decide)).trans (W1_arg6 m ρ c)

theorem W2_arg7 : W2 m ρ c (Proc.devRef .tc main_arg7) = x7 :=
  (W2_of_ne m ρ c main_arg7 (by decide)).trans (W1_arg7 m ρ c)

/-! ## After the first aggregation stretch -/

/-- The first layer's aggregate: each edge's source features scaled by the edge weight and summed into its target. -/
theorem W3_v40 : W3 m ρ c (Proc.devRef .tc main_v40) = val_main_v40 (F := Ideal) x0 x1 x2 := by
  show StableHlo.after hostOps1 (W2 m ρ c) (Proc.devRef .tc main_v40) = _
  dsimp only [hostOps1]
  after_results_simp
  rw [W2_v27 m ρ c, W2_v3 m ρ c, W2_v6 m ρ c, W2_v26 m ρ c]
  rfl

/-- The first bias as one row. -/
theorem W3_v41 : W3 m ρ c (Proc.devRef .tc main_v41) = shapeCast S1x128 x3 shapeCasts_S128_S1x128 := by
  show StableHlo.after hostOps1 (W2 m ρ c) (Proc.devRef .tc main_v41) = _
  dsimp only [hostOps1]
  after_results_simp
  rw [W2_arg3 m ρ c]
  rfl

theorem W3_v3 : W3 m ρ c (Proc.devRef .tc main_v3) = val_main_v3 (F := Ideal) x1 := by
  refine Eq.trans ?_ (W2_v3 m ρ c)
  show StableHlo.after hostOps1 (W2 m ρ c) (Proc.devRef .tc main_v3) = _
  dsimp only [hostOps1]
  after_results_simp <;> rfl

theorem W3_v6 : W3 m ρ c (Proc.devRef .tc main_v6) = val_main_v6 (F := Ideal) x1 := by
  refine Eq.trans ?_ (W2_v6 m ρ c)
  show StableHlo.after hostOps1 (W2 m ρ c) (Proc.devRef .tc main_v6) = _
  dsimp only [hostOps1]
  after_results_simp <;> rfl

theorem W3_v26 : W3 m ρ c (Proc.devRef .tc main_v26) = val_main_v26 (F := Ideal) x1 := by
  refine Eq.trans ?_ (W2_v26 m ρ c)
  show StableHlo.after hostOps1 (W2 m ρ c) (Proc.devRef .tc main_v26) = _
  dsimp only [hostOps1]
  after_results_simp <;> rfl

theorem W3_arg4 : W3 m ρ c (Proc.devRef .tc main_arg4) = x4 := by
  refine Eq.trans ?_ (W2_arg4 m ρ c)
  show StableHlo.after hostOps1 (W2 m ρ c) (Proc.devRef .tc main_arg4) = _
  dsimp only [hostOps1]
  after_results_simp <;> rfl

theorem W3_arg5 : W3 m ρ c (Proc.devRef .tc main_arg5) = x5 := by
  refine Eq.trans ?_ (W2_arg5 m ρ c)
  show StableHlo.after hostOps1 (W2 m ρ c) (Proc.devRef .tc main_arg5) = _
  dsimp only [hostOps1]
  after_results_simp <;> rfl

theorem W3_arg6 : W3 m ρ c (Proc.devRef .tc main_arg6) = x6 := by
  refine Eq.trans ?_ (W2_arg6 m ρ c)
  show StableHlo.after hostOps1 (W2 m ρ c) (Proc.devRef .tc main_arg6) = _
  dsimp only [hostOps1]
  after_results_simp <;> rfl

theorem W3_arg7 : W3 m ρ c (Proc.devRef .tc main_arg7) = x7 := by
  refine Eq.trans ?_ (W2_arg7 m ρ c)
  show StableHlo.after hostOps1 (W2 m ρ c) (Proc.devRef .tc main_arg7) = _
  dsimp only [hostOps1]
  after_results_simp <;> rfl

/-! ## After the first bias-and-cut-off region and the second projection region -/

/-- The first layer's output `max (aggregate + b1, 0)`. -/
theorem W4_v42 : W4 m ρ c (Proc.devRef .tc main_v42) = val_main_v44 (F := Ideal) x0 x1 x2 x3 := by
  refine (W4_arr m ρ c 2).trans ((Tiles1.final (V3 m ρ) c).trans ?_)
  show biasRelu (W3 m ρ c (Proc.devRef .tc main_v40)) (W3 m ρ c (Proc.devRef .tc main_v41)) = _
  rw [W3_v40 m ρ c, W3_v41 m ρ c]
  exact (max_add_eq_biasRelu _ x3 _).symm

theorem W4_v3 : W4 m ρ c (Proc.devRef .tc main_v3) = val_main_v3 (F := Ideal) x1 :=
  (W4_of_ne m ρ c main_v3 (by decide)).trans (W3_v3 m ρ c)

theorem W4_v6 : W4 m ρ c (Proc.devRef .tc main_v6) = val_main_v6 (F := Ideal) x1 :=
  (W4_of_ne m ρ c main_v6 (by decide)).trans (W3_v6 m ρ c)

theorem W4_v26 : W4 m ρ c (Proc.devRef .tc main_v26) = val_main_v26 (F := Ideal) x1 :=
  (W4_of_ne m ρ c main_v26 (by decide)).trans (W3_v26 m ρ c)

theorem W4_arg4 : W4 m ρ c (Proc.devRef .tc main_arg4) = x4 :=
  (W4_of_ne m ρ c main_arg4 (by decide)).trans (W3_arg4 m ρ c)

theorem W4_arg5 : W4 m ρ c (Proc.devRef .tc main_arg5) = x5 :=
  (W4_of_ne m ρ c main_arg5 (by decide)).trans (W3_arg5 m ρ c)

theorem W4_arg6 : W4 m ρ c (Proc.devRef .tc main_arg6) = x6 :=
  (W4_of_ne m ρ c main_arg6 (by decide)).trans (W3_arg6 m ρ c)

theorem W4_arg7 : W4 m ρ c (Proc.devRef .tc main_arg7) = x7 :=
  (W4_of_ne m ρ c main_arg7 (by decide)).trans (W3_arg7 m ρ c)

/-- The second layer's projected features. -/
theorem W5_v43 : W5 m ρ c (Proc.devRef .tc main_v43) = val_main_v45 (F := Ideal) x0 x1 x2 x3 x4 := by
  refine (W5_arr m ρ c 2).trans ((Tiles2.final (V4 m ρ) c).trans ?_)
  show dense (W4 m ρ c (Proc.devRef .tc main_v42)) (W4 m ρ c (Proc.devRef .tc main_arg4)) = _
  rw [W4_v42 m ρ c, W4_arg4 m ρ c]
  exact (dot_eq_dense _ _).symm

theorem W5_v3 : W5 m ρ c (Proc.devRef .tc main_v3) = val_main_v3 (F := Ideal) x1 :=
  (W5_of_ne m ρ c main_v3 (by decide)).trans (W4_v3 m ρ c)

theorem W5_v6 : W5 m ρ c (Proc.devRef .tc main_v6) = val_main_v6 (F := Ideal) x1 :=
  (W5_of_ne m ρ c main_v6 (by decide)).trans (W4_v6 m ρ c)

theorem W5_v26 : W5 m ρ c (Proc.devRef .tc main_v26) = val_main_v26 (F := Ideal) x1 :=
  (W5_of_ne m ρ c main_v26 (by decide)).trans (W4_v26 m ρ c)

theorem W5_arg5 : W5 m ρ c (Proc.devRef .tc main_arg5) = x5 :=
  (W5_of_ne m ρ c main_arg5 (by decide)).trans (W4_arg5 m ρ c)

theorem W5_arg6 : W5 m ρ c (Proc.devRef .tc main_arg6) = x6 :=
  (W5_of_ne m ρ c main_arg6 (by decide)).trans (W4_arg6 m ρ c)

theorem W5_arg7 : W5 m ρ c (Proc.devRef .tc main_arg7) = x7 :=
  (W5_of_ne m ρ c main_arg7 (by decide)).trans (W4_arg7 m ρ c)

/-! ## After the second aggregation stretch and the second bias-and-cut-off region -/

/-- The second layer's aggregate. -/
theorem W6_v56 : W6 m ρ c (Proc.devRef .tc main_v56) = val_main_v58 (F := Ideal) x0 x1 x2 x3 x4 := by
  show StableHlo.after hostOps3 (W5 m ρ c) (Proc.devRef .tc main_v56) = _
  dsimp only [hostOps3]
  after_results_simp
  rw [W5_v43 m ρ c, W5_v3 m ρ c, W5_v6 m ρ c, W5_v26 m ρ c]
  rfl

/-- The second bias as one row. -/
theorem W6_v57 : W6 m ρ c (Proc.devRef .tc main_v57) = shapeCast S1x128 x5 shapeCasts_S128_S1x128 := by
  show StableHlo.after hostOps3 (W5 m ρ c) (Proc.devRef .tc main_v57) = _
  dsimp only [hostOps3]
  after_results_simp
  rw [W5_arg5 m ρ c]
  rfl

theorem W6_arg6 : W6 m ρ c (Proc.devRef .tc main_arg6) = x6 := by
  refine Eq.trans ?_ (W5_arg6 m ρ c)
  show StableHlo.after hostOps3 (W5 m ρ c) (Proc.devRef .tc main_arg6) = _
  dsimp only [hostOps3]
  after_results_simp <;> rfl

theorem W6_arg7 : W6 m ρ c (Proc.devRef .tc main_arg7) = x7 := by
  refine Eq.trans ?_ (W5_arg7 m ρ c)
  show StableHlo.after hostOps3 (W5 m ρ c) (Proc.devRef .tc main_arg7) = _
  dsimp only [hostOps3]
  after_results_simp <;> rfl

/-- The second layer's output. -/
theorem W7_v58 : W7 m ρ c (Proc.devRef .tc main_v58) = val_main_v62 (F := Ideal) x0 x1 x2 x3 x4 x5 := by
  refine (W7_arr m ρ c 2).trans ((Tiles3.final (V6 m ρ) c).trans ?_)
  show biasRelu (W6 m ρ c (Proc.devRef .tc main_v56)) (W6 m ρ c (Proc.devRef .tc main_v57)) = _
  rw [W6_v56 m ρ c, W6_v57 m ρ c]
  exact (max_add_eq_biasRelu _ x5 _).symm

theorem W7_arg6 : W7 m ρ c (Proc.devRef .tc main_arg6) = x6 :=
  (W7_of_ne m ρ c main_arg6 (by decide)).trans (W6_arg6 m ρ c)

theorem W7_arg7 : W7 m ρ c (Proc.devRef .tc main_arg7) = x7 :=
  (W7_of_ne m ρ c main_arg7 (by decide)).trans (W6_arg7 m ρ c)

/-! ## The readout -/

/-- The readout's scalar bias as a `[1, 1]` array. -/
theorem W8_v59 : W8 m ρ c (Proc.devRef .tc main_v59) = shapeCast S1x1 x7 shapeCasts_S1_S1x1 := by
  show StableHlo.after hostOps4 (W7 m ρ c) (Proc.devRef .tc main_v59) = _
  dsimp only [hostOps4]
  after_results_simp
  rw [W7_arg7 m ρ c]
  rfl

theorem W8_v58 : W8 m ρ c (Proc.devRef .tc main_v58) = val_main_v62 (F := Ideal) x0 x1 x2 x3 x4 x5 := by
  refine Eq.trans ?_ (W7_v58 m ρ c)
  show StableHlo.after hostOps4 (W7 m ρ c) (Proc.devRef .tc main_v58) = _
  dsimp only [hostOps4]
  after_results_simp <;> rfl

theorem W8_arg6 : W8 m ρ c (Proc.devRef .tc main_arg6) = x6 := by
  refine Eq.trans ?_ (W7_arg6 m ρ c)
  show StableHlo.after hostOps4 (W7 m ρ c) (Proc.devRef .tc main_arg6) = _
  dsimp only [hostOps4]
  after_results_simp <;> rfl

/-- One number per node: `h2 · Wout + bout`. -/
theorem W9_v60 : W9 m ρ c (Proc.devRef .tc main_v60) = val_main_v66 (F := Ideal) x0 x1 x2 x3 x4 x5 x6 x7 := by
  refine (W9_arr m ρ c 3).trans ((Tiles4.final (V8 m ρ) c).trans ?_)
  show readout (W8 m ρ c (Proc.devRef .tc main_v58)) (W8 m ρ c (Proc.devRef .tc main_arg6)) (W8 m ρ c (Proc.devRef .tc main_v59)) = _
  rw [W8_v58 m ρ c, W8_arg6 m ρ c, W8_v59 m ρ c]
  exact (dot_add_eq_readout _ x6 x7 _).symm

/-- THE RESULT at the last boundary: the column as a vector — the reference's result stage of the launch arguments. -/
theorem W10_v61 : W10 m ρ c (Proc.devRef .tc main_v61) = val_main_v67 (F := Ideal) x0 x1 x2 x3 x4 x5 x6 x7 := by
  show StableHlo.after hostOps5 (W9 m ρ c) (Proc.devRef .tc main_v61) = _
  dsimp only [hostOps5]
  after_results_simp
  rw [W9_v60 m ρ c]
  rfl

end Cert.KernelIdeal.Fold

end
-- ==== Proof.lean ====
/-
  A two-layer graph convolution with a linear readout, as five kernel regions among host operations, against the plain
  array program: the proof of `Cert.Claim`.

  Both programs compute, for node features `x`, an edge list with a self-loop added at every node and the symmetric
  normalisation `w(e) = deg^(-1/2)[src e] · deg^(-1/2)[dst e]`:
      h1 = max (A (x · W1) + b1, 0),   h2 = max (A (h1 · W2) + b2, 0),   out = h2 · Wout + bout,
  where `A h` sums `w(e) · h[src e]` into row `dst e`. The kernel program runs the three matrix products and the two
  bias-and-cut-off steps as tiled regions (20 tiles of 5000 rows each) and leaves the gathers and scatter-adds to host
  operations; the reference does everything in host operations. On the extended reals a tile of a product is the
  restriction of the whole product, entry by entry the same sum over the 128 features in the same order, and the host
  operations between the regions are the reference's own, applied to the same values — so no law of arithmetic is
  needed beyond reading both sides at an index, and the precondition (finite inputs) is never opened.

  * The frames of the two kernel programs are the generated ones; the reference's frame is its generated run with the
    result dropped.
  * The idealization rewrote no operation, so `preserves` is trivial.
  * `algebraic`: the kernel program's result buffer ends at the last boundary of @main's fold (`Outcome.run`), which is
    the reference's result stage of the launch arguments (`Fold.W10_v61`); the reference's run ends at the same stage
    of its own arguments, which agree.
-/
import proofs.«110512_j54657753809364_1_alg».proof.Defs
import proofs.«110512_j54657753809364_1_alg».proof.Proof.Gen.Kernel
import proofs.«110512_j54657753809364_1_alg».proof.Proof.Gen.Kernel.Skeleton
import proofs.«110512_j54657753809364_1_alg».proof.Proof.Gen.Kernel.Launch
import proofs.«110512_j54657753809364_1_alg».proof.Proof.Gen.Kernel.Points
import proofs.«110512_j54657753809364_1_alg».proof.Proof.Gen.Kernel.Frame
import proofs.«110512_j54657753809364_1_alg».proof.Proof.Gen.KernelIdeal
import proofs.«110512_j54657753809364_1_alg».proof.Proof.Gen.KernelIdeal.Skeleton
import proofs.«110512_j54657753809364_1_alg».proof.Proof.Gen.KernelIdeal.Launch
import proofs.«110512_j54657753809364_1_alg».proof.Proof.Gen.KernelIdeal.Points
import proofs.«110512_j54657753809364_1_alg».proof.Proof.Gen.KernelIdeal.Frame
import proofs.«110512_j54657753809364_1_alg».proof.Proof.Gen.ReferenceIdeal
import proofs.«110512_j54657753809364_1_alg».proof.Proof.Gen.ReferenceIdeal.Run
import proofs.«110512_j54657753809364_1_alg».proof.Proof.Gen.ReferenceIdeal.Read
import proofs.«110512_j54657753809364_1_alg».proof.Proof.Gen.Pre_finite_inputs
import proofs.«110512_j54657753809364_1_alg».proof.Proof.Outcome
import proofs.«110512_j54657753809364_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's result stage of the (agreeing) launch arguments. -/
theorem algebraic : Cert.algebraic_KernelIdeal_ReferenceIdeal := by
  intro m ρ m' ρ' _ hagree
  refine ⟨fun c => Cert.ReferenceIdeal.Read.val_main_v67 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W10_v61 m ρ c), (h c).2⟩)
      (Cert.KernelIdeal.Outcome.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v67_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
